-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x768 : Shape := ⟨3, ![2, 1024, 768]⟩
abbrev S128x768 : Shape := ⟨2, ![128, 768]⟩
abbrev S128 : Shape := ⟨1, ![128]⟩
abbrev S51x128 : Shape := ⟨2, ![51, 128]⟩
abbrev S51 : Shape := ⟨1, ![51]⟩
abbrev S_ : Shape := ⟨0, ![]⟩

class Facts : Prop where
  bcast_S_S2x1024x768 : S_.BroadcastsInDim S2x1024x768 (![] : Fin 0 → Fin S2x1024x768.rank)
  reducesTo_S2x1024x768_S_d0_1_2 : S2x1024x768.ReducesTo [0, 1, 2] S_
  h_S_ : 0 < S_.numel
  bcast_S_S128x768 : S_.BroadcastsInDim S128x768 (![] : Fin 0 → Fin S128x768.rank)
  reducesTo_S128x768_S_d0_1 : S128x768.ReducesTo [0, 1] S_
  bcast_S_S128 : S_.BroadcastsInDim S128 (![] : Fin 0 → Fin S128.rank)
  reducesTo_S128_S_d0 : S128.ReducesTo [0] S_
  bcast_S_S51x128 : S_.BroadcastsInDim S51x128 (![] : Fin 0 → Fin S51x128.rank)
  reducesTo_S51x128_S_d0_1 : S51x128.ReducesTo [0, 1] S_
  bcast_S_S51 : S_.BroadcastsInDim S51 (![] : Fin 0 → Fin S51.rank)
  reducesTo_S51_S_d0 : S51.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128 .f32) (main_arg5 : FVec F S51x128 .f32) (main_arg6 : FVec F S51 .f32) (main_arg7 : FVec F S128 .f32) (main_v13 : IVec S_ 1) (main_v16 : IVec S128x768 1) : IVec S_ 1 :=
  let main_c_5 : IVec S_ 1 := constantI S_ 1 1#1
  let main_v17 : IVec S_ 1 := (fun x v => Host.reduce IntOp.andi x v reducesTo_S128x768_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S51x128 .f32 := Host.absf main_arg5
  let main_cst_8 : FVec F S_ .f32 := constant S_ .f32 0x7F800000#32
  let main_v25 : FVec F S51x128 .f32 := broadcastInDim S51x128 ![] bcast_S_S51x128 main_cst_8
  let main_v26 : IVec S51x128 1 := cmpf .olt main_v24 main_v25
  let main_c_9 : IVec S_ 1 := constantI S_ 1 1#1
  let main_v27 : IVec S_ 1 := (fun x v => Host.reduce IntOp.andi x v reducesTo_S51x128_S_d0_1 h_S_) main_v26 main_c_9
  let main_v28 : IVec S_ 1 := andi main_v23 main_v27
  let main_v29 : FVec F S51 .f32 := Host.absf main_arg6
  let main_cst_10 : FVec F S_ .f32 := constant S_ .f32 0x7F800000#32
  let main_v30 : FVec F S51 .f32 := broadcastInDim S51 ![] bcast_S_S51 main_cst_10
  let main_v31 : IVec S51 1 := cmpf .olt main_v29 main_v30
  let main_c_11 : IVec S_ 1 := constantI S_ 1 1#1
  let main_v32 : IVec S_ 1 := (fun x v => Host.reduce IntOp.andi x v reducesTo_S51_S_d0 h_S_) main_v31 main_c_11
  let main_v33 : IVec S_ 1 := andi main_v28 main_v32
  fn_part2 (F := F) main_arg7 main_v33

def fn {F : FTy → Type} [FloatOps F] (main_arg0 : FVec F S2x1024x768 .f32) (main_arg1 : FVec F S128x768 .f32) (main_arg2 : FVec F S128 .f32) (main_arg3 : FVec F S128x768 .f32) (main_arg4 : FVec F S128 .f32) (main_arg5 : FVec F S51x128 .f32) (main_arg6 : FVec F S51 .f32) (main_arg7 : FVec F S128 .f32) : IVec S_ 1 :=
  let main_v0 : FVec F S2x1024x768 .f32 := Host.absf main_arg0
  let main_cst : FVec F S_ .f32 := constant S_ .f32 0x7F800000#32
  let main_v1 : FVec F S2x1024x768 .f32 := broadcastInDim S2x1024x768 ![] bcast_S_S2x1024x768 main_cst
  let main_v2 : IVec S2x1024x768 1 := cmpf .olt main_v0 main_v1
  let main_c : IVec S_ 1 := constantI S_ 1 1#1
  let main_v3 : IVec S_ 1 := (fun x v => Host.reduce IntOp.andi x v reducesTo_S2x1024x768_S_d0_1_2 h_S_) main_v2 main_c
  let main_v4 : FVec F S128x768 .f32 := Host.absf main_arg1
  let main_cst_0 : FVec F S_ .f32 := constant S_ .f32 0x7F800000#32
  let main_v5 : FVec F S128x768 .f32 := broadcastInDim S128x768 ![] bcast_S_S128x768 main_cst_0
  let main_v6 : IVec S128x768 1 := cmpf .olt main_v4 main_v5
  let main_c_1 : IVec S_ 1 := constantI S_ 1 1#1
  let main_v7 : IVec S_ 1 := (fun x v => Host.reduce IntOp.andi x v reducesTo_S128x768_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x768 .f32 := Host.absf main_arg3
  let main_cst_4 : FVec F S_ .f32 := constant S_ .f32 0x7F800000#32
  let main_v15 : FVec F S128x768 .f32 := broadcastInDim S128x768 ![] bcast_S_S128x768 main_cst_4
  let main_v16 : IVec S128x768 1 := cmpf .olt main_v14 main_v15
  fn_part1 (F := F) main_arg4 main_arg5 main_arg6 main_arg7 main_v13 main_v16
-- ==== Kernel.lean ====
abbrev S2x1024x768 : Shape := ⟨3, ![2, 1024, 768]⟩
abbrev S128x768 : Shape := ⟨2, ![128, 768]⟩
abbrev S128 : Shape := ⟨1, ![128]⟩
abbrev S51x128 : Shape := ⟨2, ![51, 128]⟩
abbrev S51 : Shape := ⟨1, ![51]⟩
abbrev S768x128 : Shape := ⟨2, ![768, 128]⟩
abbrev S128x51 : Shape := ⟨2, ![128, 51]⟩
abbrev S1x128 : Shape := ⟨2, ![1, 128]⟩
abbrev S1x51 : Shape := ⟨2, ![1, 51]⟩
abbrev S2x1024x128 : Shape := ⟨3, ![2, 1024, 128]⟩
abbrev S1x1024x768 : Shape := ⟨3, ![1, 1024, 768]⟩
abbrev S1x1024x128 : Shape := ⟨3, ![1, 1024, 128]⟩
abbrev S1024x768 : Shape := ⟨2, ![1024, 768]⟩
abbrev S1024x128 : Shape := ⟨2, ![1024, 128]⟩
abbrev S2x1024x51x1024 : Shape := ⟨4, ![2, 1024, 51, 1024]⟩
abbrev S1x128x128 : Shape := ⟨3, ![1, 128, 128]⟩
abbrev S1x128x51x128 : Shape := ⟨4, ![1, 128, 51, 128]⟩
abbrev S128x128 : Shape := ⟨2, ![128, 128]⟩
abbrev S128x1x128 : Shape := ⟨3, ![128, 1, 128]⟩
abbrev S128x128x128 : Shape := ⟨3, ![128, 128, 128]⟩
abbrev S1x1x128 : Shape := ⟨3, ![1, 1, 128]⟩
abbrev S16384x128 : Shape := ⟨2, ![16384, 128]⟩
abbrev S16384x51 : Shape := ⟨2, ![16384, 51]⟩
abbrev S128x128x51 : Shape := ⟨3, ![128, 128, 51]⟩
abbrev S128x51x128 : Shape := ⟨3, ![128, 51, 128]⟩
abbrev S1x51x1 : Shape := ⟨3, ![1, 51, 1]⟩

abbrev nBuf : Space → Nat
  | .hbm => 21
  | .vmem => 19
  | .smem => 0
  | _ => 0

abbrev bufTy : (tb : Table) → Fin (tcTables nBuf tb) → BufTy
  | .hbm, ⟨0, _⟩ => ⟨S2x1024x768, .f32⟩
  | .hbm, ⟨1, _⟩ => ⟨S128x768, .f32⟩
  | .hbm, ⟨2, _⟩ => ⟨S128, .f32⟩
  | .hbm, ⟨3, _⟩ => ⟨S128x768, .f32⟩
  | .hbm, ⟨4, _⟩ => ⟨S128, .f32⟩
  | .hbm, ⟨5, _⟩ => ⟨S51x128, .f32⟩
  | .hbm, ⟨6, _⟩ => ⟨S51, .f32⟩
  | .hbm, ⟨7, _⟩ => ⟨S128, .f32⟩
  | .hbm, ⟨8, _⟩ => ⟨S768x128, .f32⟩
  | .hbm, ⟨9, _⟩ => ⟨S768x128, .bf16⟩
  | .hbm, ⟨10, _⟩ => ⟨S768x128, .f32⟩
  | .hbm, ⟨11, _⟩ => ⟨S768x128, .bf16⟩
  | .hbm, ⟨12, _⟩ => ⟨S128x51, .f32⟩
  | .hbm, ⟨13, _⟩ => ⟨S128x51, .bf16⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S1x51, .f32⟩
  | .hbm, ⟨18, _⟩ => ⟨S2x1024x128, .f32⟩
  | .hbm, ⟨19, _⟩ => ⟨S2x1024x128, .f32⟩
  | .hbm, ⟨20, _⟩ => ⟨S2x1024x51x1024, .f32⟩
  | .local _ .vmem, ⟨0, _⟩ => ⟨S1x1024x768, .f32⟩
  | .local _ .vmem, ⟨1, _⟩ => ⟨S1x1024x768, .f32⟩
  | .local _ .vmem, ⟨2, _⟩ => ⟨S768x128, .bf16⟩
  | .local _ .vmem, ⟨3, _⟩ => ⟨S1x128, .f32⟩
  | .local _ .vmem, ⟨4, _⟩ => ⟨S768x128, .bf16⟩
  | .local _ .vmem, ⟨5, _⟩ => ⟨S1x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x128, .f32⟩
  | .local _ .vmem, ⟨15, _⟩ => ⟨S128x51, .bf16⟩
  | .local _ .vmem, ⟨16, _⟩ => ⟨S1x51, .f32⟩
  | .local _ .vmem, ⟨17, _⟩ => ⟨S1x128x51x128, .f32⟩
  | .local _ .vmem, ⟨18, _⟩ => ⟨S1x128x51x128, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![2, 8, 8], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage1_0 : Fin 2 → Memref sig .tc .vmem S1x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 1 → Memref sig .tc .vmem S128x51 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S1x51 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S1x128x51x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

class Facts₀ : Prop where
  transposes_S128x768_S768x128_1_0 : S128x768.Transposes [1, 0] S768x128
  bitsLt_bf16_f32 : FTy.bits .bf16 < FTy.bits .f32
  transposes_S51x128_S128x51_1_0 : S51x128.Transposes [1, 0] S128x51
  shapeCasts_S128_S1x128 : S128.ShapeCasts S1x128
  shapeCasts_S51_S1x51 : S51.ShapeCasts S1x51
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S768x128_S768x128_0_0 : ∀ a, (![0, 0] : Fin 2 → Nat) a + S768x128.size a ≤ S768x128.size a
  h_S768x128 : 0 < S768x128.numel
  shapeCasts_S768x128_S768x128 : S768x128.ShapeCasts S768x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S1x128_S128 : S1x128.ShapeCasts S128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  shapeCasts_S128_S1x1x128 : S128.ShapeCasts S1x1x128
  broadcasts_S1x1x128_S128x128x128 : S1x1x128.Broadcasts S128x128x128
  shapeCasts_S128x128x128_S16384x128 : S128x128x128.ShapeCasts S16384x128
  inb_S128x51_S128x51_0_0 : ∀ a, (![0, 0] : Fin 2 → Nat) a + S128x51.size a ≤ S128x51.size a
  h_S128x51 : 0 < S128x51.numel
  shapeCasts_S128x51_S128x51 : S128x51.ShapeCasts S128x51
  shapeCasts_S16384x51_S128x128x51 : S16384x51.ShapeCasts S128x128x51
  transposes_S128x128x51_p0_2_1_S128x51x128 : S128x128x51.Transposes [0, 2, 1] S128x51x128
  inb_S1x51_S1x51_0_0 : ∀ a, (![0, 0] : Fin 2 → Nat) a + S1x51.size a ≤ S1x51.size a
  h_S1x51 : 0 < S1x51.numel
  shapeCasts_S1x51_S1x51 : S1x51.ShapeCasts S1x51
  shapeCasts_S1x51_S51 : S1x51.ShapeCasts S51
  shapeCasts_S51_S1x51x1 : S51.ShapeCasts S1x51x1
  broadcasts_S1x51x1_S128x51x128 : S1x51x1.Broadcasts S128x51x128
  inb_S1x128x51x128_S1x128x51x128_0_0_0_0 : ∀ a, (![0, 0, 0, 0] : Fin 4 → Nat) a + S1x128x51x128.size a ≤ S1x128x51x128.size a
  h_S1x128x51x128 : 0 < S1x128x51x128.numel
  shapeCasts_S1x128x51x128_S128x51x128 : S1x128x51x128.ShapeCasts S128x51x128
  shapeCasts_S128x51x128_S1x128x51x128 : S128x51x128.ShapeCasts S1x128x51x128
  dot_S1024x768_S768x128_S1024x128_1_0_0_1_n_n_wf : DotDims.WF S1024x768 S768x128 S1024x128 [1] [0] [0] [1] [] []
  dot_S16384x128_S128x51_S16384x51_1_0_0_1_n_n_wf : DotDims.WF S16384x128 S128x51 S16384x51 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S2x1024x768.size a
  hwx0_0 : ∀ i : grid0.Coords, EltTy.bits .f32 = 32 ∨ (Rect.block (s := S2x1024x768) S1x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x128.size a ≤ S768x128.size a
  hwx0_1 : ∀ i : grid0.Coords, EltTy.bits .bf16 = 32 ∨ (Rect.block (s := S768x128) S768x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x128.size a ≤ S768x128.size a
  hwx0_3 : ∀ i : grid0.Coords, EltTy.bits .bf16 = 32 ∨ (Rect.block (s := S768x128) S768x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x128.size a ≤ S2x1024x128.size a
  hwx0_5 : ∀ i : grid0.Coords, EltTy.bits .f32 = 32 ∨ (Rect.block (s := S2x1024x128) S1x1024x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x128.size a ≤ S2x1024x128.size a
  hwx0_6 : ∀ i : grid0.Coords, EltTy.bits .f32 = 32 ∨ (Rect.block (s := S2x1024x128) S1x1024x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x128.size a ≤ S2x1024x128.size a
  hwx1_0 : ∀ i : grid1.Coords, EltTy.bits .f32 = 32 ∨ (Rect.block (s := S2x1024x128) S1x128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x128.size a ≤ S2x1024x128.size a
  hwx1_1 : ∀ i : grid1.Coords, EltTy.bits .f32 = 32 ∨ (Rect.block (s := S2x1024x128) S1x128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x51.size a ≤ S128x51.size a
  hwx1_3 : ∀ i : grid1.Coords, EltTy.bits .bf16 = 32 ∨ (Rect.block (s := S128x51) S128x51.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x51.size a ≤ S1x51.size a
  hwx1_4 : ∀ i : grid1.Coords, EltTy.bits .f32 = 32 ∨ (Rect.block (s := S1x51) S1x51.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x128x51x128.size a ≤ S2x1024x51x1024.size a
  hwx1_5 : ∀ i : grid1.Coords, EltTy.bits .f32 = 32 ∨ (Rect.block (s := S2x1024x51x1024) S1x128x51x128.size (cc1_transform_5 i) (hinb1_5 i)).WholeWords (EltTy.packing .f32)

variable [Facts₀]

def dot_S1024x768_S768x128_S1024x128_1_0_0_1_n_n : DotDims S1024x768 S768x128 S1024x128 where
  lhsContracting := [1]
  rhsContracting := [0]
  lhsNonContracting := [0]
  rhsNonContracting := [1]
  lhsBatch := []
  rhsBatch := []
  wf := dot_S1024x768_S768x128_S1024x128_1_0_0_1_n_n_wf
def dot_S16384x128_S128x51_S16384x51_1_0_0_1_n_n : DotDims S16384x128 S128x51 S16384x51 where
  lhsContracting := [1]
  rhsContracting := [0]
  lhsNonContracting := [0]
  rhsNonContracting := [1]
  lhsBatch := []
  rhsBatch := []
  wf := dot_S16384x128_S128x51_S16384x51_1_0_0_1_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S768x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10_0) S1x1024x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_1) S1x1024x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v10_0) S1x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10_1) S1x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S128x51.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x51.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x128x51x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2x1024x768 : Shape := ⟨3, ![2, 1024, 768]⟩
abbrev S128x768 : Shape := ⟨2, ![128, 768]⟩
abbrev S128 : Shape := ⟨1, ![128]⟩
abbrev S51x128 : Shape := ⟨2, ![51, 128]⟩
abbrev S51 : Shape := ⟨1, ![51]⟩
abbrev S2x1024x128 : Shape := ⟨3, ![2, 1024, 128]⟩
abbrev S1x1x128 : Shape := ⟨3, ![1, 1, 128]⟩
abbrev S2x1024x1x128 : Shape := ⟨4, ![2, 1024, 1, 128]⟩
abbrev S2x1x1024x128 : Shape := ⟨4, ![2, 1, 1024, 128]⟩
abbrev S2x1024x1024x128 : Shape := ⟨4, ![2, 1024, 1024, 128]⟩
abbrev S1x1x1x128 : Shape := ⟨4, ![1, 1, 1, 128]⟩
abbrev S51x2x1024x1024 : Shape := ⟨4, ![51, 2, 1024, 1024]⟩
abbrev S2x1024x51x1024 : Shape := ⟨4, ![2, 1024, 51, 1024]⟩
abbrev S1x1x51x1 : Shape := ⟨4, ![1, 1, 51, 1]⟩

abbrev nBuf : Space → Nat
  | .hbm => 29
  | .vmem => 0
  | .smem => 0
  | _ => 0

abbrev bufTy : (tb : Table) → Fin (tcTables nBuf tb) → BufTy
  | .hbm, ⟨0, _⟩ => ⟨S2x1024x768, .f32⟩
  | .hbm, ⟨1, _⟩ => ⟨S128x768, .f32⟩
  | .hbm, ⟨2, _⟩ => ⟨S128, .f32⟩
  | .hbm, ⟨3, _⟩ => ⟨S128x768, .f32⟩
  | .hbm, ⟨4, _⟩ => ⟨S128, .f32⟩
  | .hbm, ⟨5, _⟩ => ⟨S51x128, .f32⟩
  | .hbm, ⟨6, _⟩ => ⟨S51, .f32⟩
  | .hbm, ⟨7, _⟩ => ⟨S128, .f32⟩
  | .hbm, ⟨8, _⟩ => ⟨S2x1024x128, .f32⟩
  | .hbm, ⟨9, _⟩ => ⟨S1x1x128, .f32⟩
  | .hbm, ⟨10, _⟩ => ⟨S2x1024x128, .f32⟩
  | .hbm, ⟨11, _⟩ => ⟨S2x1024x128, .f32⟩
  | .hbm, ⟨12, _⟩ => ⟨S2x1024x128, .f32⟩
  | .hbm, ⟨13, _⟩ => ⟨S1x1x128, .f32⟩
  | .hbm, ⟨14, _⟩ => ⟨S2x1024x128, .f32⟩
  | .hbm, ⟨15, _⟩ => ⟨S2x1024x128, .f32⟩
  | .hbm, ⟨16, _⟩ => ⟨S2x1024x1x128, .f32⟩
  | .hbm, ⟨17, _⟩ => ⟨S2x1x1024x128, .f32⟩
  | .hbm, ⟨18, _⟩ => ⟨S2x1024x1024x128, .f32⟩
  | .hbm, ⟨19, _⟩ => ⟨S2x1024x1024x128, .f32⟩
  | .hbm, ⟨20, _⟩ => ⟨S2x1024x1024x128, .f32⟩
  | .hbm, ⟨21, _⟩ => ⟨S1x1x1x128, .f32⟩
  | .hbm, ⟨22, _⟩ => ⟨S2x1024x1024x128, .f32⟩
  | .hbm, ⟨23, _⟩ => ⟨S2x1024x1024x128, .f32⟩
  | .hbm, ⟨24, _⟩ => ⟨S51x2x1024x1024, .f32⟩
  | .hbm, ⟨25, _⟩ => ⟨S2x1024x51x1024, .f32⟩
  | .hbm, ⟨26, _⟩ => ⟨S1x1x51x1, .f32⟩
  | .hbm, ⟨27, _⟩ => ⟨S2x1024x51x1024, .f32⟩
  | .hbm, ⟨28, _⟩ => ⟨S2x1024x51x1024, .f32⟩
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S2x1024x128_0_1_2 : S1x1x128.BroadcastsInDim S2x1024x128 (![0, 1, 2] : Fin 3 → Fin S2x1024x128.rank)
  bcast_S2x1024x128_S2x1024x1x128_0_1_3 : S2x1024x128.BroadcastsInDim S2x1024x1x128 (![0, 1, 3] : Fin 3 → Fin S2x1024x1x128.rank)
  bcast_S2x1024x128_S2x1x1024x128_0_2_3 : S2x1024x128.BroadcastsInDim S2x1x1024x128 (![0, 2, 3] : Fin 3 → Fin S2x1x1024x128.rank)
  bcast_S2x1024x1x128_S2x1024x1024x128_0_1_2_3 : S2x1024x1x128.BroadcastsInDim S2x1024x1024x128 (![0, 1, 2, 3] : Fin 4 → Fin S2x1024x1024x128.rank)
  bcast_S2x1x1024x128_S2x1024x1024x128_0_1_2_3 : S2x1x1024x128.BroadcastsInDim S2x1024x1024x128 (![0, 1, 2, 3] : Fin 4 → Fin S2x1024x1024x128.rank)
  bcast_S128_S1x1x1x128_3 : S128.BroadcastsInDim S1x1x1x128 (![3] : Fin 1 → Fin S1x1x1x128.rank)
  bcast_S1x1x1x128_S2x1024x1024x128_0_1_2_3 : S1x1x1x128.BroadcastsInDim S2x1024x1024x128 (![0, 1, 2, 3] : Fin 4 → Fin S2x1024x1024x128.rank)
  transposes_S51x2x1024x1024_S2x1024x51x1024_1_2_0_3 : S51x2x1024x1024.Transposes [1, 2, 0, 3] S2x1024x51x1024
  bcast_S51_S1x1x51x1_2 : S51.BroadcastsInDim S1x1x51x1 (![2] : Fin 1 → Fin S1x1x51x1.rank)
  bcast_S1x1x51x1_S2x1024x51x1024_0_1_2_3 : S1x1x51x1.BroadcastsInDim S2x1024x51x1024 (![0, 1, 2, 3] : Fin 4 → Fin S2x1024x51x1024.rank)
  dot_S2x1024x768_S128x768_S2x1024x128_2_1_01_0_n_n_wf : DotDims.WF S2x1024x768 S128x768 S2x1024x128 [2] [1] [0, 1] [0] [] []
  dot_S51x128_S2x1024x1024x128_S51x2x1024x1024_1_3_0_012_n_n_wf : DotDims.WF S51x128 S2x1024x1024x128 S51x2x1024x1024 [1] [3] [0] [0, 1, 2] [] []

variable [Facts₀]

def dot_S2x1024x768_S128x768_S2x1024x128_2_1_01_0_n_n : DotDims S2x1024x768 S128x768 S2x1024x128 where
  lhsContracting := [2]
  rhsContracting := [1]
  lhsNonContracting := [0, 1]
  rhsNonContracting := [0]
  lhsBatch := []
  rhsBatch := []
  wf := dot_S2x1024x768_S128x768_S2x1024x128_2_1_01_0_n_n_wf
def dot_S51x128_S2x1024x1024x128_S51x2x1024x1024_1_3_0_012_n_n : DotDims S51x128 S2x1024x1024x128 S51x2x1024x1024 where
  lhsContracting := [1]
  rhsContracting := [3]
  lhsNonContracting := [0]
  rhsNonContracting := [0, 1, 2]
  lhsBatch := []
  rhsBatch := []
  wf := dot_S51x128_S2x1024x1024x128_S51x2x1024x1024_1_3_0_012_n_n_wf

class Facts : Prop extends Facts₀ where

variable [Facts]
-- ==== Proof.KernelRun.lean ====
/-
  The idealized kernel program's run with its RESULT named.

  @main is a stretch of host operations (three transposes with a change of float format, four reshapes) and two kernel
  launches. The contents of every buffer at each boundary are a fold from the launch memory: after the host stretch, after
  the projection launch (its two output arrays at what the launch's write-backs leave), after the pair-scoring launch.
  Every weakly fair execution terminates with each unscoped buffer at the last boundary's contents; read at the result
  buffer this is the pair-scoring launch's output array after its write-backs, and at each argument the launch memory.
-/
import proofs.«108946_j39779987096204_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched. -/
theorem run_result : θ_run defs (onTc (τ := τ) (main (F := F))) ⟨m, fun _ => 0, ρ⟩ (fun r => ∀ c : Dev nD,
      r.2.mem ((c.tc : Thread nD τ).loc main_v11) = W3 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v11 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c)⟩)

end Cert.KernelIdeal.Whole

end
-- ==== Proof.HostSide.lean ====
/-
  What the host operations before the two launches leave in the buffers the launches read.

  Each weight matrix is transposed and then changed to a shorter float format; each bias vector is reshaped to a row;
  the input is not touched. These are the arrays the projection launch (the input, two transposed weights, two bias rows)
  and the pair-scoring launch (the feature bias row, the transposed label matrix, the label bias row) find.
-/
import proofs.«108946_j39779987096204_1_alg».proof.Proof.Gen.KernelIdeal.Frame
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-- The input is as launched. -/
theorem host_input (c : Dev nD) :
    W1 m ρ c (Proc.devRef .tc main_arg0) = m ((c.tc : Thread nD τ).loc main_arg0) := by
  show StableHlo.after hostOps0 (W0 m ρ c) (Proc.devRef .tc main_arg0) = _
  after_results

/-- The left weight, transposed and narrowed. -/
theorem host_wu (c : Dev nD) :
    W1 m ρ c (Proc.devRef .tc main_v1)
      = truncf .bf16 (transpose S768x128 [1, 0] (m ((c.tc : Thread nD τ).loc main_arg1) : FVec F S128x768 .f32)
          transposes_S128x768_S768x128_1_0) bitsLt_bf16_f32 := by
  show StableHlo.after hostOps0 (W0 m ρ c) (Proc.devRef .tc main_v1) = _
  after_results

/-- The right weight, transposed and narrowed. -/
theorem host_ww (c : Dev nD) :
    W1 m ρ c (Proc.devRef .tc main_v3)
      = truncf .bf16 (transpose S768x128 [1, 0] (m ((c.tc : Thread nD τ).loc main_arg3) : FVec F S128x768 .f32)
          transposes_S128x768_S768x128_1_0) bitsLt_bf16_f32 := by
  show StableHlo.after hostOps0 (W0 m ρ c) (Proc.devRef .tc main_v3) = _
  after_results

/-- The label matrix, transposed and narrowed. -/
theorem host_wv (c : Dev nD) :
    W1 m ρ c (Proc.devRef .tc main_v5)
      = truncf .bf16 (transpose S128x51 [1, 0] (m ((c.tc : Thread nD τ).loc main_arg5) : FVec F S51x128 .f32)
          transposes_S51x128_S128x51_1_0) bitsLt_bf16_f32 := by
  show StableHlo.after hostOps0 (W0 m ρ c) (Proc.devRef .tc main_v5) = _
  after_results

/-- The left bias as a row. -/
theorem host_bu (c : Dev nD) :
    W1 m ρ c (Proc.devRef .tc main_v6)
      = shapeCast S1x128 (m ((c.tc : Thread nD τ).loc main_arg2) : FVec F S128 .f32) shapeCasts_S128_S1x128 := by
  show StableHlo.after hostOps0 (W0 m ρ c) (Proc.devRef .tc main_v6) = _
  after_results
  rfl

/-- The right bias as a row. -/
theorem host_bw (c : Dev nD) :
    W1 m ρ c (Proc.devRef .tc main_v7)
      = shapeCast S1x128 (m ((c.tc : Thread nD τ).loc main_arg4) : FVec F S128 .f32) shapeCasts_S128_S1x128 := by
  show StableHlo.after hostOps0 (W0 m ρ c) (Proc.devRef .tc main_v7) = _
  after_results
  rfl

/-- The feature bias as a row. -/
theorem host_bias (c : Dev nD) :
    W1 m ρ c (Proc.devRef .tc main_v8)
      = shapeCast S1x128 (m ((c.tc : Thread nD τ).loc main_arg7) : FVec F S128 .f32) shapeCasts_S128_S1x128 := by
  show StableHlo.after hostOps0 (W0 m ρ c) (Proc.devRef .tc main_v8) = _
  after_results
  rfl

/-- The label bias as a row. -/
theorem host_bv (c : Dev nD) :
    W1 m ρ c (Proc.devRef .tc main_v9)
      = shapeCast S1x51 (m ((c.tc : Thread nD τ).loc main_arg6) : FVec F S51 .f32) shapeCasts_S51_S1x51 := by
  show StableHlo.after hostOps0 (W0 m ρ c) (Proc.devRef .tc main_v9) = _
  after_results
  rfl

end Cert.KernelIdeal.Whole

end
-- ==== Proof.LibPlainMatmul.lean ====
/-
  A matrix product read at an index, at the ideal values: for the plain dimension numbers (an M × K matrix by a K × N
  matrix, the left operand contracted on its columns and the right on its rows) a `tpu.matmul` into the zero accumulator
  is, at (i, j), the sum over k of left (i, k) times right (k, j) (`plainMatmul_apply`). The operands' element formats
  are free: at the ideal values a change of format is the identity.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {M K N : Nat}

/-- The left operand's row coordinate is the output's row. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q (1 : Fin (⟨2, ![M, K]⟩ : Shape).rank)).val = (q ⟨0, by rw [DotDims.rank_contr]; exact Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q (0 : Fin (⟨2, ![K, N]⟩ : Shape).rank)).val = (q ⟨0, by rw [DotDims.rank_contr]; exact Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain matrix product into the zero accumulator, at (i, j): the sum over k of left (i, k) · right (k, j). -/
theorem plainMatmul_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant ⟨2, ![M, N]⟩ .f32 0x00000000#32) (ix2 i j)
      = ∑ k : Fin K, lhs (ix2 i k) * rhs (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainMatmul

end
-- ==== Proof.ProjPayload.lean ====
/-
  What the projection kernel stores for one batch element, read at an index.

  The body multiplies the batch element's [1024, 768] rows (narrowed to a shorter float format, which changes nothing on
  the extended reals) by a [768, 128] weight held transposed, into the zero accumulator, and adds a [1, 128] bias row
  repeated over the rows. At (s, h) that is the row s of the input against the column h of the transposed weight, plus
  the bias's entry h. The two stores of the body (the left and the right projection) are the same formula on different
  weights and biases.
-/
import proofs.«108946_j39779987096204_1_alg».proof.Proof.Gen.KernelIdeal.Skeleton
import proofs.«108946_j39779987096204_1_alg».proof.Proof.LibPlainMatmul
import Idealize.ShloMosaic.Lib.ValueLayout
import Idealize.ShloMosaic.Lib.Pipeline.Value

noncomputable section

open scoped BigOperators

namespace Cert.KernelIdeal.Blocks

open Cert.KernelIdeal Cert.KernelIdeal.Gen Idealize.ShloMosaic Idealize.ShloMosaic.ValueIdx

/-- The input rows narrowed, at (s, k): the batch element's entry (0, s, k). -/
theorem rows_apply (x0 : FVec Ideal S1x1024x768 .f32) (s : Fin 1024) (k : Fin 768) :
    k0_pay1 (F := Ideal) x0 (ix2 s k) = x0 (ix3 (0 : Fin 1) s k) := by
  unfold k0_pay1
  refine (truncf_apply (φ := .f32) (ψ := .bf16) _ _ _).trans ?_
  exact shapeCast_1ab_ab_apply x0 _ s k

/-- The first store's value at (u, s, h). -/
theorem left_block_apply (x0 : FVec Ideal S1x1024x768 .f32) (x1 : FVec Ideal S768x128 .bf16) (x2 : FVec Ideal S1x128 .f32)
    (u : Fin 1) (s : Fin 1024) (h : Fin 128) :
    k0_pay2 (F := Ideal) x0 x1 x2 (ix3 u s h)
      = (∑ k : Fin 768, x0 (ix3 (0 : Fin 1) s k) * x1 (ix2 k h)) + x2 (ix2 (0 : Fin 1) h) := by
  unfold k0_pay2
  refine (shapeCast_ab_1ab_apply _ _ u s h).trans ?_
  refine (addf_apply _ _ _).trans ?_
  refine congrArg₂ (· + ·) ?_ ?_
  · refine (PlainMatmul.plainMatmul_apply none _ _ s h).trans ?_
    refine Finset.sum_congr rfl fun k _ => ?_
    exact congrArg₂ (· * ·) (rows_apply x0 s k) (congrFun (shapeCast_self x1 _) _)
  · refine (broadcastTo_1b_ab_apply _ _ s h).trans ?_
    exact congrFun (shapeCast_self x2 _) _

/-- The second store's value at (u, s, h). -/
theorem right_block_apply (x0 : FVec Ideal S1x1024x768 .f32) (x3 : FVec Ideal S768x128 .bf16) (x4 : FVec Ideal S1x128 .f32)
    (u : Fin 1) (s : Fin 1024) (h : Fin 128) :
    k0_pay3 (F := Ideal) x0 x3 x4 (ix3 u s h)
      = (∑ k : Fin 768, x0 (ix3 (0 : Fin 1) s k) * x3 (ix2 k h)) + x4 (ix2 (0 : Fin 1) h) := by
  unfold k0_pay3
  refine (shapeCast_ab_1ab_apply _ _ u s h).trans ?_
  refine (addf_apply _ _ _).trans ?_
  refine congrArg₂ (· + ·) ?_ ?_
  · refine (PlainMatmul.plainMatmul_apply none _ _ s h).trans ?_
    refine Finset.sum_congr rfl fun k _ => ?_
    exact congrArg₂ (· * ·) (rows_apply x0 s k) (congrFun (shapeCast_self x3 _) _)
  · refine (broadcastTo_1b_ab_apply _ _ s h).trans ?_
    exact congrFun (shapeCast_self x4 _) _

end Cert.KernelIdeal.Blocks

end
-- ==== Proof.ProjArray.lean ====
/-
  The projection launch's two output arrays after its write-backs, as functions of the arrays the launch finds.

  The grid has one point per batch element. Point t reads the batch element t of the input (a [1, 1024, 768] block), the
  whole transposed weights and bias rows, and writes back the batch element t of each output. What it writes back is
  block t of ONE whole-array function (`projOf`): at (b, s, h), the row (b, s) of the input against the column h of
  the transposed weight, plus the bias row's entry h. The two blocks tile each output array, so each array ends at that
  function.
-/
import proofs.«108946_j39779987096204_1_alg».proof.Proof.Gen.KernelIdeal.Frame
import proofs.«108946_j39779987096204_1_alg».proof.Proof.ProjPayload
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem off2 : (![0, 0] : Fin 2 → Nat) = fun _ => 0 := funext fun a => by fin_cases a <;> rfl
theorem off3 : (![0, 0, 0] : Fin 3 → Nat) = fun _ => 0 := funext fun a => by fin_cases a <;> rfl

/-- A projection as the launch computes it: from the input, a weight held transposed and a bias held as a row. -/
def projOf (x : FVec Ideal S2x1024x768 .f32) (wt : FVec Ideal S768x128 .bf16) (β : FVec Ideal S1x128 .f32) :
    FVec Ideal S2x1024x128 .f32 :=
  fun i => (∑ k : Fin 768, x (ix3 (i 0) (i 1) k) * wt (ix2 k (i 2))) + β (ix2 (0 : Fin 1) (i 2))

/-- The printed index maps, decided over the two points: the input's block moves with the outputs' along the batch axis,
    every other block index is zero. -/
theorem proj_idx : ∀ t : Fin cfg0.N,
    win0_0.index t (0 : Fin 3) = win0_5.index t (0 : Fin 3) ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 3) = 0 ∧ win0_5.index t (2 : Fin 3) = 0
    ∧ win0_6.index t (0 : Fin 3) = win0_5.index t (0 : Fin 3) ∧ win0_6.index t (1 : Fin 3) = 0 ∧ win0_6.index t (2 : Fin 3) = 0 :=
  (by decide +kernel : ∀ t : Fin grid0.N, _)

/-- Every batch element is some point's. -/
theorem proj_onto : ∀ b : Fin 2, ∃ t : Fin cfg0.N, win0_5.index t (0 : Fin 3) = b.val :=
  (by decide +kernel : ∀ b : Fin 2, ∃ t : Fin grid0.N, win0_5.index t (0 : Fin 3) = b.val)

/-- What point t writes back to the first output is block t of the left projection. -/
theorem flushed0_5_eq (c : Dev nD) (t : Fin cfg0.N) :
    (dat0 V c).flushed 5 t
      = ((cfg0.win 5).blk t).view.read (Elt Ideal) (projOf (V c main_arg0) (V c main_v1) (V c main_v6)) := by
  show (cfg0.win 5).cut (grid0.coords t) ((dat0 V c).after 5 t) = _
  rw [after0_5]
  unfold out0_5
  rw [View.canon_unit_zero off3]
  simp only [View.ld_unit_zero (S := S1x1024x768) off3, View.ld_unit_zero (S := S768x128) off2,
    View.ld_unit_zero (S := S1x128) off2]
  obtain ⟨e00, e01, e02, e10, e11, e20, e21, -, -, -, -, e51, e52, -, -, -⟩ := proj_idx t
  funext j
  revert j
  show ∀ j : S1x1024x128.Idx, k0_pay2 (iblk0 V c 0 t) (iblk0 V c 1 t) (iblk0 V c 2 t) j
      = projOf (V c main_arg0) (V c main_v1) (V c main_v6) (((cfg0.win 5).blk t).view.emb j)
  intro j
  obtain ⟨u, s, h, rfl⟩ : ∃ (u : Fin 1) (s : Fin 1024) (h : Fin 128), j = ix3 u s h := ⟨j 0, j 1, j 2, eq_ix3 j⟩
  refine (left_block_apply (iblk0 V c 0 t) (iblk0 V c 1 t) (iblk0 V c 2 t) u s h).trans ?_
  have hu : u.val = 0 := by omega
  have r0 : ∀ k : Fin 768, ((cfg0.win 0).blk t).view.emb (ix3 (0 : Fin 1) s k)
      = ix3 ((((cfg0.win 5).blk t).view.emb (ix3 u s h)) 0) ((((cfg0.win 5).blk t).view.emb (ix3 u s h)) 1) k := fun k => by
    funext a; apply Fin.ext
    match a with
    | ⟨0, _⟩ => show win0_0.index t (0 : Fin 3) * 1 + 1 * 0 = win0_5.index t (0 : Fin 3) * 1 + 1 * u.val; omega
    | ⟨1, _⟩ => show win0_0.index t (1 : Fin 3) * 1024 + 1 * s.val = win0_5.index t (1 : Fin 3) * 1024 + 1 * s.val; omega
    | ⟨2, _⟩ => show win0_0.index t (2 : Fin 3) * 768 + 1 * k.val = k.val; omega
  have r1 : ∀ k : Fin 768, ((cfg0.win 1).blk t).view.emb (ix2 k h)
      = ix2 k ((((cfg0.win 5).blk t).view.emb (ix3 u s h)) 2) := fun k => by
    funext a; apply Fin.ext
    match a with
    | ⟨0, _⟩ => show win0_1.index t (0 : Fin 2) * 768 + 1 * k.val = k.val; omega
    | ⟨1, _⟩ => show win0_1.index t (1 : Fin 2) * 128 + 1 * h.val = win0_5.index t (2 : Fin 3) * 128 + 1 * h.val; omega
  have r2 : ((cfg0.win 2).blk t).view.emb (ix2 (0 : Fin 1) h)
      = ix2 (0 : Fin 1) ((((cfg0.win 5).blk t).view.emb (ix3 u s h)) 2) := by
    funext a; apply Fin.ext
    match a with
    | ⟨0, _⟩ => show win0_2.index t (0 : Fin 2) * 1 + 1 * 0 = 0; omega
    | ⟨1, _⟩ => show win0_2.index t (1 : Fin 2) * 128 + 1 * h.val = win0_5.index t (2 : Fin 3) * 128 + 1 * h.val; omega
  have key : ∀ (A : FVec Ideal S2x1024x768 .f32) (B : FVec Ideal S768x128 .bf16) (C : FVec Ideal S1x128 .f32),
      (∑ k : Fin 768, A (((cfg0.win 0).blk t).view.emb (ix3 (0 : Fin 1) s k)) * B (((cfg0.win 1).blk t).view.emb (ix2 k h)))
        + C (((cfg0.win 2).blk t).view.emb (ix2 (0 : Fin 1) h))
      = projOf A B C (((cfg0.win 5).blk t).view.emb (ix3 u s h)) := by
    intro A B C
    simp only [r0, r1, r2]
    rfl
  exact key (V c main_arg0) (V c main_v1) (V c main_v6)

/-- What point t writes back to the second output is block t of the right projection. -/
theorem flushed0_6_eq (c : Dev nD) (t : Fin cfg0.N) :
    (dat0 V c).flushed 6 t
      = ((cfg0.win 6).blk t).view.read (Elt Ideal) (projOf (V c main_arg0) (V c main_v3) (V c main_v7)) := by
  show (cfg0.win 6).cut (grid0.coords t) ((dat0 V c).after 6 t) = _
  rw [after0_6]
  unfold out0_6
  rw [View.canon_unit_zero off3]
  simp only [View.ld_unit_zero (S := S1x1024x768) off3, View.ld_unit_zero (S := S768x128) off2,
    View.ld_unit_zero (S := S1x128) off2]
  obtain ⟨e00, e01, e02, -, -, -, -, e30, e31, e40, e41, -, -, e60, e61, e62⟩ := proj_idx t
  funext j
  revert j
  show ∀ j : S1x1024x128.Idx, k0_pay3 (iblk0 V c 0 t) (iblk0 V c 3 t) (iblk0 V c 4 t) j
      = projOf (V c main_arg0) (V c main_v3) (V c main_v7) (((cfg0.win 6).blk t).view.emb j)
  intro j
  obtain ⟨u, s, h, rfl⟩ : ∃ (u : Fin 1) (s : Fin 1024) (h : Fin 128), j = ix3 u s h := ⟨j 0, j 1, j 2, eq_ix3 j⟩
  refine (right_block_apply (iblk0 V c 0 t) (iblk0 V c 3 t) (iblk0 V c 4 t) u s h).trans ?_
  have hu : u.val = 0 := by omega
  have r0 : ∀ k : Fin 768, ((cfg0.win 0).blk t).view.emb (ix3 (0 : Fin 1) s k)
      = ix3 ((((cfg0.win 6).blk t).view.emb (ix3 u s h)) 0) ((((cfg0.win 6).blk t).view.emb (ix3 u s h)) 1) k := fun k => by
    funext a; apply Fin.ext
    match a with
    | ⟨0, _⟩ => show win0_0.index t (0 : Fin 3) * 1 + 1 * 0 = win0_6.index t (0 : Fin 3) * 1 + 1 * u.val; omega
    | ⟨1, _⟩ => show win0_0.index t (1 : Fin 3) * 1024 + 1 * s.val = win0_6.index t (1 : Fin 3) * 1024 + 1 * s.val; omega
    | ⟨2, _⟩ => show win0_0.index t (2 : Fin 3) * 768 + 1 * k.val = k.val; omega
  have r1 : ∀ k : Fin 768, ((cfg0.win 3).blk t).view.emb (ix2 k h)
      = ix2 k ((((cfg0.win 6).blk t).view.emb (ix3 u s h)) 2) := fun k => by
    funext a; apply Fin.ext
    match a with
    | ⟨0, _⟩ => show win0_3.index t (0 : Fin 2) * 768 + 1 * k.val = k.val; omega
    | ⟨1, _⟩ => show win0_3.index t (1 : Fin 2) * 128 + 1 * h.val = win0_6.index t (2 : Fin 3) * 128 + 1 * h.val; omega
  have r2 : ((cfg0.win 4).blk t).view.emb (ix2 (0 : Fin 1) h)
      = ix2 (0 : Fin 1) ((((cfg0.win 6).blk t).view.emb (ix3 u s h)) 2) := by
    funext a; apply Fin.ext
    match a with
    | ⟨0, _⟩ => show win0_4.index t (0 : Fin 2) * 1 + 1 * 0 = 0; omega
    | ⟨1, _⟩ => show win0_4.index t (1 : Fin 2) * 128 + 1 * h.val = win0_6.index t (2 : Fin 3) * 128 + 1 * h.val; omega
  have key : ∀ (A : FVec Ideal S2x1024x768 .f32) (B : FVec Ideal S768x128 .bf16) (C : FVec Ideal S1x128 .f32),
      (∑ k : Fin 768, A (((cfg0.win 0).blk t).view.emb (ix3 (0 : Fin 1) s k)) * B (((cfg0.win 3).blk t).view.emb (ix2 k h)))
        + C (((cfg0.win 4).blk t).view.emb (ix2 (0 : Fin 1) h))
      = projOf A B C (((cfg0.win 6).blk t).view.emb (ix3 u s h)) := by
    intro A B C
    simp only [r0, r1, r2]
    rfl
  exact key (V c main_arg0) (V c main_v3) (V c main_v7)

/-- An index of the first output array is in point t's block iff each coordinate is in the block's range on its axis. -/
theorem mem_left_blk (t : Fin cfg0.N) (i : S2x1024x128.Idx) :
    i ∈ ((cfg0.win 5).blk t).view.set ↔ ∀ a : Fin 3, win0_5.index t a * S1x1024x128.size a ≤ (i a).val
      ∧ (i a).val < win0_5.index t a * S1x1024x128.size a + S1x1024x128.size a := by
  show i ∈ ((View.whole main_v10_0).slice (win0_5.rect t)).set ↔ _
  rw [View.set_slice_whole, Rect.mem_set_unit]
  exact Iff.rfl

/-- The same for the second output array. -/
theorem mem_right_blk (t : Fin cfg0.N) (i : S2x1024x128.Idx) :
    i ∈ ((cfg0.win 6).blk t).view.set ↔ ∀ a : Fin 3, win0_6.index t a * S1x1024x128.size a ≤ (i a).val
      ∧ (i a).val < win0_6.index t a * S1x1024x128.size a + S1x1024x128.size a := by
  show i ∈ ((View.whole main_v10_1).slice (win0_6.rect t)).set ↔ _
  rw [View.set_slice_whole, Rect.mem_set_unit]
  exact Iff.rfl

/-- Every index of the first output array is in the block of its batch element's point. -/
theorem left_cover (i : S2x1024x128.Idx) :
    ∃ t : Fin cfg0.N, (cfg0.win 5).flush t = true ∧ i ∈ ((cfg0.win 5).blk t).view.set := by
  have h0 : (i 0).val < 2 := (i 0).isLt
  have h1 : (i 1).val < 1024 := (i 1).isLt
  have h2 : (i 2).val < 128 := (i 2).isLt
  obtain ⟨t, q0⟩ := proj_onto ⟨(i 0).val, h0⟩
  have q0' : win0_5.index t (0 : Fin 3) = (i 0).val := q0
  obtain ⟨-, -, -, -, -, -, -, -, -, -, -, e51, e52, -, -, -⟩ := proj_idx t
  refine ⟨t, flush0_5 t, ?_⟩
  rw [mem_left_blk]
  intro a
  match a with
  | ⟨0, _⟩ =>
    show win0_5.index t (0 : Fin 3) * 1 ≤ (i 0).val ∧ (i 0).val < win0_5.index t (0 : Fin 3) * 1 + 1; omega
  | ⟨1, _⟩ =>
    show win0_5.index t (1 : Fin 3) * 1024 ≤ (i 1).val ∧ (i 1).val < win0_5.index t (1 : Fin 3) * 1024 + 1024; omega
  | ⟨2, _⟩ =>
    show win0_5.index t (2 : Fin 3) * 128 ≤ (i 2).val ∧ (i 2).val < win0_5.index t (2 : Fin 3) * 128 + 128; omega

/-- The same for the second output array. -/
theorem right_cover (i : S2x1024x128.Idx) :
    ∃ t : Fin cfg0.N, (cfg0.win 6).flush t = true ∧ i ∈ ((cfg0.win 6).blk t).view.set := by
  have h0 : (i 0).val < 2 := (i 0).isLt
  have h1 : (i 1).val < 1024 := (i 1).isLt
  have h2 : (i 2).val < 128 := (i 2).isLt
  obtain ⟨t, q0⟩ := proj_onto ⟨(i 0).val, h0⟩
  have q0' : win0_5.index t (0 : Fin 3) = (i 0).val := q0
  obtain ⟨-, -, -, -, -, -, -, -, -, -, -, -, -, e60, e61, e62⟩ := proj_idx t
  refine ⟨t, flush0_6 t, ?_⟩
  rw [mem_right_blk]
  intro a
  match a with
  | ⟨0, _⟩ =>
    show win0_6.index t (0 : Fin 3) * 1 ≤ (i 0).val ∧ (i 0).val < win0_6.index t (0 : Fin 3) * 1 + 1; omega
  | ⟨1, _⟩ =>
    show win0_6.index t (1 : Fin 3) * 1024 ≤ (i 1).val ∧ (i 1).val < win0_6.index t (1 : Fin 3) * 1024 + 1024; omega
  | ⟨2, _⟩ =>
    show win0_6.index t (2 : Fin 3) * 128 ≤ (i 2).val ∧ (i 2).val < win0_6.index t (2 : Fin 3) * 128 + 128; omega

/-- The first output array after the launch's write-backs is the left projection of the arrays the launch finds. -/
theorem left_array (c : Dev nD) :
    (dat0 V c).arrAt 5 cfg0.N = projOf (V c main_arg0) (V c main_v1) (V c main_v6) :=
  (dat0 V c).arrAt_eq_of_cover 5 _ (fun t _ => flushed0_5_eq V c t) left_cover

/-- The second output array after the launch's write-backs is the right projection. -/
theorem right_array (c : Dev nD) :
    (dat0 V c).arrAt 6 cfg0.N = projOf (V c main_arg0) (V c main_v3) (V c main_v7) :=
  (dat0 V c).arrAt_eq_of_cover 6 _ (fun t _ => flushed0_6_eq V c t) right_cover

end Cert.KernelIdeal.Blocks

end
-- ==== Proof.LibRowPairs.lean ====
/-
  Layout operations of a block that pairs every row of one matrix with every row of another, READ AT AN INDEX, for
  any extents and any element type:

  * a matrix [a, c] given a middle unit axis, [a, 1, c], and that repeated along the middle axis to [a, b, c];
  * a stack of one matrix [1, b, c] repeated along the first axis to [a, b, c];
  * the pairs (i, j) of an [a, b, c] array laid out as the rows i · b + j of an [n, c] matrix (n = a · b), and back.
-/
import Idealize.ShloMosaic.Lib.Pipeline.Value
import Idealize.ShloMosaic.Lib.ValueIdx

noncomputable section

namespace Idealize.ShloMosaic.RowPairs

open Idealize.ShloMosaic Idealize.ShloMosaic.ValueIdx

variable {α : Type}

/-- A matrix [a, c] given a middle unit axis reads, at (i, z, k), the matrix at (i, k). -/
theorem shapeCast_ac_a1c_apply {a c : ℕ} (x : (⟨2, ![a, c]⟩ : Shape).Idx → α)
    (h : (⟨2, ![a, c]⟩ : Shape).ShapeCasts ⟨3, ![a, 1, c]⟩) (i : Fin a) (z : Fin 1) (k : Fin c) :
    shapeCast ⟨3, ![a, 1, c]⟩ x h (ix3 i z k) = x (ix2 i k) :=
  shapeCast_apply x h _ _ (by
    have hz : z.val = 0 := by omega
    rw [Shape.rowMajor_val_three, Shape.rowMajor_val_two]
    show i.val * c + k.val = (i.val * 1 + z.val) * c + k.val
    rw [hz, Nat.mul_one, Nat.add_zero])

/-- An [a, 1, c] array repeated along its middle axis reads, at (i, j, k), the operand at (i, 0, k). -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A [1, b, c] array repeated along its first axis reads, at (i, j, k), the operand at (0, j, k). -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- The pairs (i, j) of an [a, b, c] array laid out as rows of an [n, c] matrix: row r = i · b + j reads the pair. -/
theorem shapeCast_pairs_rows_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- The rows of an [n, c] matrix read back as pairs: the pair (i, j) reads row r = i · b + j. -/
theorem shapeCast_rows_pairs_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

end Idealize.ShloMosaic.RowPairs

end
-- ==== Proof.LibUnitAxes.lean ====
/-
  A vector placed on one axis of a rank-3 block and repeated over the other two, READ AT AN INDEX, for any extents and
  any element type:

  * a vector [c] viewed as [1, 1, c], and that repeated along the first two axes to [a, b, c] (a per-feature term added
    to every pair of rows);
  * a vector [b] viewed as [1, b, 1], and that repeated along the first and last axes to [a, b, c] (a per-label term
    added to every entry of a label's plane).
-/
import Idealize.ShloMosaic.Lib.Pipeline.Value
import Idealize.ShloMosaic.Lib.ValueIdx

noncomputable section

namespace Idealize.ShloMosaic.UnitAxes

open Idealize.ShloMosaic Idealize.ShloMosaic.ValueIdx

variable {α : Type}

/-- A vector [c] viewed as [1, 1, c] reads, at (u, v, k), the vector at k. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    simp only [hu, hv, Nat.zero_mul, Nat.zero_add])

/-- A [1, 1, c] array repeated along its first two axes reads, at (i, j, k), the operand at (0, 0, k). -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A vector [b] viewed as [1, b, 1] reads, at (u, l, w), the vector at l. -/
theorem shapeCast_b_1b1_apply {b : ℕ} (x : (⟨1, ![b]⟩ : Shape).Idx → α)
    (h : (⟨1, ![b]⟩ : Shape).ShapeCasts ⟨3, ![1, b, 1]⟩) (u : Fin 1) (l : Fin b) (w : Fin 1) :
    shapeCast ⟨3, ![1, b, 1]⟩ x h (ix3 u l w) = x (ix1 l) :=
  shapeCast_apply x h _ _ (by
    have hu : u.val = 0 := by omega
    have hw : w.val = 0 := by omega
    rw [Shape.rowMajor_val_three, Shape.rowMajor_val_one]
    show l.val = (u.val * b + l.val) * 1 + w.val
    simp only [hu, hw, Nat.zero_mul, Nat.zero_add, Nat.mul_one, Nat.add_zero])

/-- A [1, b, 1] array repeated along its first and last axes reads, at (i, l, k), the operand at (0, l, 0). -/
theorem broadcastTo_1b1_abc_apply {a b c : ℕ} (x : (⟨3, ![1, b, 1]⟩ : Shape).Idx → α)
    (h : (⟨3, ![1, b, 1]⟩ : Shape).Broadcasts ⟨3, ![a, b, c]⟩) (i : Fin a) (l : Fin b) (k : Fin c) :
    broadcastTo ⟨3, ![a, b, c]⟩ x h (ix3 i l k) = x (ix3 (0 : Fin 1) l (0 : Fin 1)) := by
  refine broadcastTo_apply x h (ix3 i l k) (ix3 (0 : Fin 1) l (0 : Fin 1)) fun ax => ?_
  match ax with
  | ⟨0, _⟩ => rfl
  | ⟨1, _⟩ =>
    show l.val = if b = 1 then 0 else l.val
    split
    · have := l.isLt; omega
    · rfl
  | ⟨2, _⟩ => rfl

end Idealize.ShloMosaic.UnitAxes

end
-- ==== Proof.ScorePayload.lean ====
/-
  What the pair-scoring kernel stores for one tile of 128 × 128 pairs of positions, read at an index.

  The body pairs every row p of the left block with every row q of the right block: outer (p, q, h) is the left row's
  entry h plus the right row's entry h plus the feature bias's entry h. The pairs are laid out as the 16384 rows
  p · 128 + q of a matrix (narrowed to a shorter float format, which changes nothing on the extended reals), multiplied
  by the [128, 51] label matrix held transposed into the zero accumulator, read back as pairs, and the label axis is
  moved between the two position axes; the label bias's entry l is added on every entry of label l's plane. At
  (p, l, q) that is the sum over h of outer (p, q, h) times the transposed label matrix's (h, l), plus the label
  bias's entry l.
-/
import proofs.«108946_j39779987096204_1_alg».proof.Proof.Gen.KernelIdeal.Skeleton
import proofs.«108946_j39779987096204_1_alg».proof.Proof.LibPlainMatmul
import proofs.«108946_j39779987096204_1_alg».proof.Proof.LibRowPairs
import proofs.«108946_j39779987096204_1_alg».proof.Proof.LibUnitAxes
import Idealize.ShloMosaic.Lib.ValueLayout
import Idealize.ShloMosaic.Lib.Pipeline.Value

noncomputable section

open scoped BigOperators

namespace Cert.KernelIdeal.Blocks

open Cert.KernelIdeal Cert.KernelIdeal.Gen Idealize.ShloMosaic Idealize.ShloMosaic.ValueIdx

/-- The row of the pair (p, q) among the 16384 rows. -/
def pairRow (p q : Fin 128) : Fin 16384 := ⟨p.val * 128 + q.val, by have := p.isLt; have := q.isLt; omega⟩

/-- The one store's value at (u, p, l, q). -/
theorem score_block_apply (x0 x1 : FVec Ideal S1x128x128 .f32) (x2 : FVec Ideal S1x128 .f32) (x3 : FVec Ideal S128x51 .bf16)
    (x4 : FVec Ideal S1x51 .f32) (u : Fin 1) (p : Fin 128) (l : Fin 51) (q : Fin 128) :
    k1_pay1 (F := Ideal) x0 x1 x2 x3 x4 (ix4 u p l q)
      = (∑ h : Fin 128, ((x0 (ix3 (0 : Fin 1) p h) + x1 (ix3 (0 : Fin 1) q h)) + x2 (ix2 (0 : Fin 1) h)) * x3 (ix2 h l))
        + x4 (ix2 (0 : Fin 1) l) := by
  unfold k1_pay1
  refine (shapeCast_abc_1abc_apply _ _ u p l q).trans ?_
  refine (addf_apply _ _ _).trans ?_
  refine congrArg₂ (· + ·) ?_ ?_
  · -- the label axis moved back, the rows read as pairs, the product at (row of (p, q), l)
    refine (transpose_ix3_021_apply _ _ p l q).trans ?_
    refine (RowPairs.shapeCast_rows_pairs_apply _ _ p q l (pairRow p q) rfl).trans ?_
    refine (PlainMatmul.plainMatmul_apply none _ _ (pairRow p q) l).trans ?_
    refine Finset.sum_congr rfl fun h _ => ?_
    refine congrArg₂ (· * ·) ?_ (congrFun (shapeCast_self x3 _) _)
    -- the pairs laid out as rows, narrowed: outer (p, q, h)
    refine (RowPairs.shapeCast_pairs_rows_apply _ _ p q h (pairRow p q) rfl).trans ?_
    refine (truncf_apply (φ := .f32) (ψ := .bf16) _ _ _).trans ?_
    refine (addf_apply _ _ _).trans ?_
    refine congrArg₂ (· + ·) ((addf_apply _ _ _).trans (congrArg₂ (· + ·) ?_ ?_)) ?_
    · refine (RowPairs.broadcastTo_a1c_abc_apply _ _ p q h).trans ?_
      refine (RowPairs.shapeCast_ac_a1c_apply _ _ p (0 : Fin 1) h).trans ?_
      exact shapeCast_1ab_ab_apply x0 _ p h
    · refine (RowPairs.broadcastTo_1bc_abc_apply _ _ p q h).trans ?_
      refine (shapeCast_ab_1ab_apply _ _ (0 : Fin 1) q h).trans ?_
      exact shapeCast_1ab_ab_apply x1 _ q h
    · refine (UnitAxes.broadcastTo_11c_abc_apply _ _ p q h).trans ?_
      refine (UnitAxes.shapeCast_c_11c_apply _ _ (0 : Fin 1) (0 : Fin 1) h).trans ?_
      refine (shapeCast_1a_a_apply _ _ h).trans ?_
      exact congrFun (shapeCast_self x2 _) _
  · refine (UnitAxes.broadcastTo_1b1_abc_apply _ _ p l q).trans ?_
    refine (UnitAxes.shapeCast_b_1b1_apply _ _ (0 : Fin 1) l (0 : Fin 1)).trans ?_
    refine (shapeCast_1a_a_apply _ _ l).trans ?_
    exact congrFun (shapeCast_self x4 _) _

end Cert.KernelIdeal.Blocks

end
-- ==== Proof.ScoreArray.lean ====
/-
  The pair-scoring launch's output array after its write-backs, as a function of the arrays the launch finds.

  The grid has one point per batch element b and per pair (I, J) of 128-row tiles. Point t reads rows 128·I … of the left
  projection and rows 128·J … of the right projection of batch element b (two [1, 128, 128] blocks), the whole feature
  bias row, transposed label matrix and label bias row, and writes back the [1, 128, 51, 128] block at (b, I, 0, J) of the
  output. What it writes back is that block of ONE whole-array function (`scoreOf`): at (b, i, l, j), the sum over the
  features h of (left (b, i, h) + right (b, j, h) + bias h) times the transposed label matrix's (h, l), plus the label
  bias's entry l. The 2 · 8 · 8 blocks tile the output array, so the array ends at that function.
-/
import proofs.«108946_j39779987096204_1_alg».proof.Proof.Gen.KernelIdeal.Frame
import proofs.«108946_j39779987096204_1_alg».proof.Proof.ScorePayload
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- The scores as the launch computes them: from the two projections, the feature bias held as a row, the label matrix
    held transposed and the label bias held as a row. -/
def scoreOf (Lp Rp : FVec Ideal S2x1024x128 .f32) (γ : FVec Ideal S1x128 .f32) (wt : FVec Ideal S128x51 .bf16)
    (bv : FVec Ideal S1x51 .f32) : FVec Ideal S2x1024x51x1024 .f32 :=
  fun i => (∑ h : Fin 128, ((Lp (ix3 (i 0) (i 1) h) + Rp (ix3 (i 0) (i 3) h)) + γ (ix2 (0 : Fin 1) h)) * wt (ix2 h (i 2)))
    + bv (ix2 (0 : Fin 1) (i 2))

/-- The printed index maps, decided over the 128 points: the left block follows the output's batch and first position
    tile, the right block its batch and second position tile; every other block index is zero. -/
theorem score_idx : ∀ t : Fin cfg1.N,
    win1_0.index t (0 : Fin 3) = win1_5.index t (0 : Fin 4) ∧ win1_0.index t (1 : Fin 3) = win1_5.index t (1 : Fin 4)
    ∧ win1_0.index t (2 : Fin 3) = 0
    ∧ win1_1.index t (0 : Fin 3) = win1_5.index t (0 : Fin 4) ∧ win1_1.index t (1 : Fin 3) = win1_5.index t (3 : Fin 4)
    ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (2 : Fin 4) = 0 :=
  (by decide +kernel : ∀ t : Fin grid1.N, _)

/-- Every batch element and pair of tiles is some point's. -/
theorem score_onto : ∀ (b : Fin 2) (I J : Fin 8), ∃ t : Fin cfg1.N,
    win1_5.index t (0 : Fin 4) = b.val ∧ win1_5.index t (1 : Fin 4) = I.val ∧ win1_5.index t (3 : Fin 4) = J.val :=
  (by decide +kernel : ∀ (b : Fin 2) (I J : Fin 8), ∃ t : Fin grid1.N,
    win1_5.index t (0 : Fin 4) = b.val ∧ win1_5.index t (1 : Fin 4) = I.val ∧ win1_5.index t (3 : Fin 4) = J.val)

/-- What point t writes back is block t of the scores. -/
theorem flushed1_5_eq (c : Dev nD) (t : Fin cfg1.N) :
    (dat1 V c).flushed 5 t
      = ((cfg1.win 5).blk t).view.read (Elt Ideal)
          (scoreOf (V c main_v10_0) (V c main_v10_1) (V c main_v8) (V c main_v5) (V c main_v9)) := by
  show (cfg1.win 5).cut (grid1.coords t) ((dat1 V c).after 5 t) = _
  rw [after1_5]
  unfold out1_5
  rw [View.canon_unit_zero zero4]
  simp only [View.ld_unit_zero (S := S1x128x128) zero3, View.ld_unit_zero (S := S1x128) zero2,
    View.ld_unit_zero (S := S128x51) zero2, View.ld_unit_zero (S := S1x51) zero2]
  obtain ⟨e00, e01, e02, e10, e11, e12, e20, e21, e30, e31, e40, e41, e52⟩ := score_idx t
  funext j
  revert j
  show ∀ j : S1x128x51x128.Idx, k1_pay1 (iblk1 V c 0 t) (iblk1 V c 1 t) (iblk1 V c 2 t) (iblk1 V c 3 t) (iblk1 V c 4 t) j
      = scoreOf (V c main_v10_0) (V c main_v10_1) (V c main_v8) (V c main_v5) (V c main_v9) (((cfg1.win 5).blk t).view.emb j)
  intro j
  obtain ⟨u, p, l, q, rfl⟩ : ∃ (u : Fin 1) (p : Fin 128) (l : Fin 51) (q : Fin 128), j = ix4 u p l q :=
    ⟨j 0, j 1, j 2, j 3, eq_ix4 j⟩
  refine (score_block_apply (iblk1 V c 0 t) (iblk1 V c 1 t) (iblk1 V c 2 t) (iblk1 V c 3 t) (iblk1 V c 4 t) u p l q).trans ?_
  have hu : u.val = 0 := by omega
  have r0 : ∀ h : Fin 128, ((cfg1.win 0).blk t).view.emb (ix3 (0 : Fin 1) p h)
      = ix3 ((((cfg1.win 5).blk t).view.emb (ix4 u p l q)) 0) ((((cfg1.win 5).blk t).view.emb (ix4 u p l q)) 1) h := fun h => by
    funext a; apply Fin.ext
    match a with
    | ⟨0, _⟩ => show win1_0.index t (0 : Fin 3) * 1 + 1 * 0 = win1_5.index t (0 : Fin 4) * 1 + 1 * u.val; omega
    | ⟨1, _⟩ => show win1_0.index t (1 : Fin 3) * 128 + 1 * p.val = win1_5.index t (1 : Fin 4) * 128 + 1 * p.val; omega
    | ⟨2, _⟩ => show win1_0.index t (2 : Fin 3) * 128 + 1 * h.val = h.val; omega
  have r1 : ∀ h : Fin 128, ((cfg1.win 1).blk t).view.emb (ix3 (0 : Fin 1) q h)
      = ix3 ((((cfg1.win 5).blk t).view.emb (ix4 u p l q)) 0) ((((cfg1.win 5).blk t).view.emb (ix4 u p l q)) 3) h := fun h => by
    funext a; apply Fin.ext
    match a with
    | ⟨0, _⟩ => show win1_1.index t (0 : Fin 3) * 1 + 1 * 0 = win1_5.index t (0 : Fin 4) * 1 + 1 * u.val; omega
    | ⟨1, _⟩ => show win1_1.index t (1 : Fin 3) * 128 + 1 * q.val = win1_5.index t (3 : Fin 4) * 128 + 1 * q.val; omega
    | ⟨2, _⟩ => show win1_1.index t (2 : Fin 3) * 128 + 1 * h.val = h.val; omega
  have r2 : ∀ h : Fin 128, ((cfg1.win 2).blk t).view.emb (ix2 (0 : Fin 1) h) = ix2 (0 : Fin 1) h := fun h => by
    funext a; apply Fin.ext
    match a with
    | ⟨0, _⟩ => show win1_2.index t (0 : Fin 2) * 1 + 1 * 0 = 0; omega
    | ⟨1, _⟩ => show win1_2.index t (1 : Fin 2) * 128 + 1 * h.val = h.val; omega
  have r3 : ∀ h : Fin 128, ((cfg1.win 3).blk t).view.emb (ix2 h l)
      = ix2 h ((((cfg1.win 5).blk t).view.emb (ix4 u p l q)) 2) := fun h => by
    funext a; apply Fin.ext
    match a with
    | ⟨0, _⟩ => show win1_3.index t (0 : Fin 2) * 128 + 1 * h.val = h.val; omega
    | ⟨1, _⟩ => show win1_3.index t (1 : Fin 2) * 51 + 1 * l.val = win1_5.index t (2 : Fin 4) * 51 + 1 * l.val; omega
  have r4 : ((cfg1.win 4).blk t).view.emb (ix2 (0 : Fin 1) l)
      = ix2 (0 : Fin 1) ((((cfg1.win 5).blk t).view.emb (ix4 u p l q)) 2) := by
    funext a; apply Fin.ext
    match a with
    | ⟨0, _⟩ => show win1_4.index t (0 : Fin 2) * 1 + 1 * 0 = 0; omega
    | ⟨1, _⟩ => show win1_4.index t (1 : Fin 2) * 51 + 1 * l.val = win1_5.index t (2 : Fin 4) * 51 + 1 * l.val; omega
  have key : ∀ (A B : FVec Ideal S2x1024x128 .f32) (C : FVec Ideal S1x128 .f32) (D : FVec Ideal S128x51 .bf16)
      (E : FVec Ideal S1x51 .f32),
      (∑ h : Fin 128,
        ((A (((cfg1.win 0).blk t).view.emb (ix3 (0 : Fin 1) p h)) + B (((cfg1.win 1).blk t).view.emb (ix3 (0 : Fin 1) q h)))
          + C (((cfg1.win 2).blk t).view.emb (ix2 (0 : Fin 1) h)))
        * D (((cfg1.win 3).blk t).view.emb (ix2 h l)))
      + E (((cfg1.win 4).blk t).view.emb (ix2 (0 : Fin 1) l))
      = scoreOf A B C D E (((cfg1.win 5).blk t).view.emb (ix4 u p l q)) := by
    intro A B C D E
    simp only [r0, r1, r2, r3, r4]
    rfl
  exact key (V c main_v10_0) (V c main_v10_1) (V c main_v8) (V c main_v5) (V c main_v9)

/-- An index of the output array is in point t's block iff each coordinate is in the block's range on its axis. -/
theorem mem_score_blk (t : Fin cfg1.N) (i : S2x1024x51x1024.Idx) :
    i ∈ ((cfg1.win 5).blk t).view.set ↔ ∀ a : Fin 4, win1_5.index t a * S1x128x51x128.size a ≤ (i a).val
      ∧ (i a).val < win1_5.index t a * S1x128x51x128.size a + S1x128x51x128.size a := by
  show i ∈ ((View.whole main_v11).slice (win1_5.rect t)).set ↔ _
  rw [View.set_slice_whole, Rect.mem_set_unit]
  exact Iff.rfl

/-- Every index of the output array is in some point's block: the point of its batch element and of the tiles
    (i / 128, j / 128) of its two positions. -/
theorem score_cover (i : S2x1024x51x1024.Idx) :
    ∃ t : Fin cfg1.N, (cfg1.win 5).flush t = true ∧ i ∈ ((cfg1.win 5).blk t).view.set := by
  have h0 : (i 0).val < 2 := (i 0).isLt
  have h1 : (i 1).val < 1024 := (i 1).isLt
  have h2 : (i 2).val < 51 := (i 2).isLt
  have h3 : (i 3).val < 1024 := (i 3).isLt
  obtain ⟨t, q0, q1, q3⟩ := score_onto ⟨(i 0).val, h0⟩ ⟨(i 1).val / 128, by omega⟩ ⟨(i 3).val / 128, by omega⟩
  have q0' : win1_5.index t (0 : Fin 4) = (i 0).val := q0
  have q1' : win1_5.index t (1 : Fin 4) = (i 1).val / 128 := q1
  have q3' : win1_5.index t (3 : Fin 4) = (i 3).val / 128 := q3
  obtain ⟨-, -, -, -, -, -, -, -, -, -, -, -, e52⟩ := score_idx t
  refine ⟨t, flush1_5 t, ?_⟩
  rw [mem_score_blk]
  intro a
  match a with
  | ⟨0, _⟩ =>
    show win1_5.index t (0 : Fin 4) * 1 ≤ (i 0).val ∧ (i 0).val < win1_5.index t (0 : Fin 4) * 1 + 1; omega
  | ⟨1, _⟩ =>
    show win1_5.index t (1 : Fin 4) * 128 ≤ (i 1).val ∧ (i 1).val < win1_5.index t (1 : Fin 4) * 128 + 128; omega
  | ⟨2, _⟩ =>
    show win1_5.index t (2 : Fin 4) * 51 ≤ (i 2).val ∧ (i 2).val < win1_5.index t (2 : Fin 4) * 51 + 51; omega
  | ⟨3, _⟩ =>
    show win1_5.index t (3 : Fin 4) * 128 ≤ (i 3).val ∧ (i 3).val < win1_5.index t (3 : Fin 4) * 128 + 128; omega

/-- The output array after the launch's write-backs is the scores of the arrays the launch finds. -/
theorem score_array (c : Dev nD) :
    (dat1 V c).arrAt 5 cfg1.N = scoreOf (V c main_v10_0) (V c main_v10_1) (V c main_v8) (V c main_v5) (V c main_v9) :=
  (dat1 V c).arrAt_eq_of_cover 5 _ (fun t _ => flushed1_5_eq V c t) score_cover

end Cert.KernelIdeal.Blocks

end
-- ==== Proof.Spec.lean ====
/-
  The function both programs compute, index by index, on the extended reals.

  For a batch b, a position s and a feature h, a PROJECTION of the input is
      proj x W β (b, s, h) = (∑ d, x (b, s, d) · W (h, d)) + β h.
  With a left projection L and a right projection R (two weight matrices, two biases), a feature bias γ, a label matrix
  Wv and a label bias bv, the SCORE of the pair of positions (i, j) for label l in batch b is
      score L R γ Wv bv (b, i, l, j) = (∑ h, ((L (b, i, h) + R (b, j, h)) + γ h) · Wv (l, h)) + bv l.
  The result array, of shape [2, 1024, 51, 1024], is `result`: the score of the two projections of one input.
-/
import Idealize.ShloMosaic.PureOps.Ideal
import Idealize.ShloMosaic.Lib.ValueIdx

noncomputable section

open scoped BigOperators

namespace PairScore

open Idealize.ShloMosaic Idealize.ShloMosaic.ValueIdx

/-- One projection of the input: a row of the input against a row of the weight, plus the bias's entry. -/
def proj (x : FVec Ideal ⟨3, ![2, 1024, 768]⟩ .f32) (W : FVec Ideal ⟨2, ![128, 768]⟩ .f32) (β : FVec Ideal ⟨1, ![128]⟩ .f32) :
    FVec Ideal ⟨3, ![2, 1024, 128]⟩ .f32 :=
  fun i => (∑ d : Fin 768, x (ix3 (i 0) (i 1) d) * W (ix2 (i 2) d)) + β (ix1 (i 2))

/-- The score of every pair of positions for every label. -/
def score (L R : FVec Ideal ⟨3, ![2, 1024, 128]⟩ .f32) (γ : FVec Ideal ⟨1, ![128]⟩ .f32)
    (Wv : FVec Ideal ⟨2, ![51, 128]⟩ .f32) (bv : FVec Ideal ⟨1, ![51]⟩ .f32) : FVec Ideal ⟨4, ![2, 1024, 51, 1024]⟩ .f32 :=
  fun i => (∑ h : Fin 128, ((L (ix3 (i 0) (i 1) h) + R (ix3 (i 0) (i 3) h)) + γ (ix1 h)) * Wv (ix2 (i 2) h)) + bv (ix1 (i 2))

/-- The result: the score of the left and right projections of the one input. -/
def result (x : FVec Ideal ⟨3, ![2, 1024, 768]⟩ .f32) (Wu : FVec Ideal ⟨2, ![128, 768]⟩ .f32) (bu : FVec Ideal ⟨1, ![128]⟩ .f32)
    (Ww : FVec Ideal ⟨2, ![128, 768]⟩ .f32) (bw : FVec Ideal ⟨1, ![128]⟩ .f32) (Wv : FVec Ideal ⟨2, ![51, 128]⟩ .f32)
    (bv : FVec Ideal ⟨1, ![51]⟩ .f32) (γ : FVec Ideal ⟨1, ![128]⟩ .f32) : FVec Ideal ⟨4, ![2, 1024, 51, 1024]⟩ .f32 :=
  score (proj x Wu bu) (proj x Ww bw) γ Wv bv

end PairScore

end
-- ==== Proof.KernelValue.lean ====
/-
  The idealized kernel program computes `PairScore.result`.

  The result buffer ends at the pair-scoring launch's output array, which is the scores (`Blocks.scoreOf`) of the arrays
  that launch finds: the projection launch's two output arrays — each a projection (`Blocks.projOf`) of the arrays THAT
  launch finds — and three host-prepared arrays. The host prepares each weight by transposing it (and changing its float
  format, the identity on the extended reals) and each bias by viewing it as a row; read through the transposes and the
  row views, the launches' functions are the projections and the score of the arguments themselves.
-/
import proofs.«108946_j39779987096204_1_alg».proof.Proof.KernelRun
import proofs.«108946_j39779987096204_1_alg».proof.Proof.HostSide
import proofs.«108946_j39779987096204_1_alg».proof.Proof.ProjArray
import proofs.«108946_j39779987096204_1_alg».proof.Proof.ScoreArray
import proofs.«108946_j39779987096204_1_alg».proof.Proof.Spec
import Idealize.ShloMosaic.Lib.ValueLayout

set_option maxRecDepth 16384

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx

/-- A projection computed from the transposed weight and the bias row is the projection of the weight and the bias. -/
theorem projOf_host (x : FVec Ideal S2x1024x768 .f32) (W : FVec Ideal S128x768 .f32) (β : FVec Ideal S128 .f32) :
    Blocks.projOf x (truncf .bf16 (transpose S768x128 [1, 0] W transposes_S128x768_S768x128_1_0) bitsLt_bf16_f32)
        (shapeCast S1x128 β shapeCasts_S128_S1x128)
      = PairScore.proj x W β := by
  funext i
  obtain ⟨b, s, h, rfl⟩ : ∃ (b : Fin 2) (s : Fin 1024) (h : Fin 128), i = ix3 b s h := ⟨i 0, i 1, i 2, eq_ix3 i⟩
  show (∑ k : Fin 768, x (ix3 b s k) * transpose S768x128 [1, 0] W transposes_S128x768_S768x128_1_0 (ix2 k h))
      + shapeCast S1x128 β shapeCasts_S128_S1x128 (ix2 (0 : Fin 1) h)
    = (∑ d : Fin 768, x (ix3 b s d) * W (ix2 h d)) + β (ix1 h)
  refine congrArg₂ (· + ·) (Finset.sum_congr rfl fun k _ => congrArg (x (ix3 b s k) * ·) ?_) ?_
  · exact transpose_ix2_apply W _ k h
  · exact shapeCast_a_1a_apply β _ (0 : Fin 1) h

/-- The scores computed from the feature bias row, the transposed label matrix and the label bias row are the scores of the
    feature bias, the label matrix and the label bias. -/
theorem scoreOf_host (Lp Rp : FVec Ideal S2x1024x128 .f32) (γ : FVec Ideal S128 .f32) (Wv : FVec Ideal S51x128 .f32)
    (bv : FVec Ideal S51 .f32) :
    Blocks.scoreOf Lp Rp (shapeCast S1x128 γ shapeCasts_S128_S1x128)
        (truncf .bf16 (transpose S128x51 [1, 0] Wv transposes_S51x128_S128x51_1_0) bitsLt_bf16_f32)
        (shapeCast S1x51 bv shapeCasts_S51_S1x51)
      = PairScore.score Lp Rp γ Wv bv := by
  funext i
  obtain ⟨b, p, l, q, rfl⟩ : ∃ (b : Fin 2) (p : Fin 1024) (l : Fin 51) (q : Fin 1024), i = ix4 b p l q :=
    ⟨i 0, i 1, i 2, i 3, eq_ix4 i⟩
  show (∑ h : Fin 128, ((Lp (ix3 b p h) + Rp (ix3 b q h)) + shapeCast S1x128 γ shapeCasts_S128_S1x128 (ix2 (0 : Fin 1) h))
        * transpose S128x51 [1, 0] Wv transposes_S51x128_S128x51_1_0 (ix2 h l))
      + shapeCast S1x51 bv shapeCasts_S51_S1x51 (ix2 (0 : Fin 1) l)
    = (∑ h : Fin 128, ((Lp (ix3 b p h) + Rp (ix3 b q h)) + γ (ix1 h)) * Wv (ix2 l h)) + bv (ix1 l)
  refine congrArg₂ (· + ·) (Finset.sum_congr rfl fun h _ => ?_) ?_
  · rw [shapeCast_a_1a_apply γ _ (0 : Fin 1) h, transpose_ix2_apply Wv _ h l]
  · exact shapeCast_a_1a_apply bv _ (0 : Fin 1) l

variable (m : (ℓ : Loc nD τ sig) → Buf (Elt Ideal) ℓ) (ρ : Dev nD → PrngReg)

/-- The last boundary's contents at the result buffer: the score of the two projections of the input argument. -/
theorem result_value (c : Dev nD) :
    W3 m ρ c (Proc.devRef .tc main_v11)
      = PairScore.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  have hL : V2 m ρ c main_v10_0 = Blocks.projOf (V1 m ρ c main_arg0) (V1 m ρ c main_v1) (V1 m ρ c main_v6) :=
    (W2_arr m ρ c 5).trans (Blocks.left_array (V1 m ρ) c)
  have hR : V2 m ρ c main_v10_1 = Blocks.projOf (V1 m ρ c main_arg0) (V1 m ρ c main_v3) (V1 m ρ c main_v7) :=
    (W2_arr m ρ c 6).trans (Blocks.right_array (V1 m ρ) c)
  have h8 := (W2_of_ne m ρ c main_v8 (by decide)).trans (host_bias m ρ c)
  have h5 := (W2_of_ne m ρ c main_v5 (by decide)).trans (host_wv m ρ c)
  have h9 := (W2_of_ne m ρ c main_v9 (by decide)).trans (host_bv m ρ c)
  refine (W3_arr m ρ c 5).trans ?_
  refine (Blocks.score_array (V2 m ρ) c).trans ?_
  rw [hL, hR]
  show Blocks.scoreOf _ _ (W2 m ρ c (Proc.devRef .tc main_v8)) (W2 m ρ c (Proc.devRef .tc main_v5))
      (W2 m ρ c (Proc.devRef .tc main_v9)) = _
  rw [h8, h5, h9]
  show Blocks.scoreOf
      (Blocks.projOf (W1 m ρ c (Proc.devRef .tc main_arg0)) (W1 m ρ c (Proc.devRef .tc main_v1)) (W1 m ρ c (Proc.devRef .tc main_v6)))
      (Blocks.projOf (W1 m ρ c (Proc.devRef .tc main_arg0)) (W1 m ρ c (Proc.devRef .tc main_v3)) (W1 m ρ c (Proc.devRef .tc main_v7)))
      _ _ _ = _
  rw [host_input m ρ c, host_wu m ρ c, host_bu m ρ c, host_ww m ρ c, host_bw m ρ c, projOf_host, projOf_host, scoreOf_host]
  rfl

/-- Every weakly fair execution of the idealized kernel program terminates with the result buffer at
    `PairScore.result` of the arguments and the arguments unchanged. -/
theorem run : θ_run defs (onTc (τ := τ) (main (F := Ideal))) ⟨m, fun _ => 0, ρ⟩ (fun r => ∀ c : Dev nD,
      r.2.mem ((c.tc : Thread nD τ).loc main_v11)
        = PairScore.result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_value m ρ c), (h c).2⟩) (run_result m ρ)

end Cert.KernelIdeal.Whole

end
-- ==== Proof.RefScore.lean ====
/-
  The reference computes `PairScore.result`.

  Read one operation at a time (the generated stages): each einsum of the input with a weight matrix is a row of the input
  against a row of the weight; the biases are placed on the feature axis and repeated; the outer sum puts the left
  projection of position i and the right projection of position j at the pair (i, j); the label einsum contracts the
  feature axis against the label matrix's rows — with the label matrix as its LEFT factor, so each product is turned
  round by commutativity of the product on the extended reals —; the transpose moves the label axis between the two
  position axes; the label bias is placed on the label axis and repeated.
-/
import proofs.«108946_j39779987096204_1_alg».proof.Proof.Gen.ReferenceIdeal.Read
import proofs.«108946_j39779987096204_1_alg».proof.Proof.Spec

noncomputable section

open scoped BigOperators

namespace Cert.ReferenceIdeal.RefValue

open Cert.ReferenceIdeal Cert.ReferenceIdeal.Read Idealize.ShloMosaic Idealize.ShloMosaic.ValueIdx

/-- The first einsum plus its bias, at (b, s, h): the left projection. -/
theorem left_apply (x0 : FVec Ideal S2x1024x768 .f32) (x1 : FVec Ideal S128x768 .f32) (x2 : FVec Ideal S128 .f32)
    (j : S2x1024x128.Idx) : val_main_v3 (F := Ideal) x0 x1 x2 j = PairScore.proj x0 x1 x2 j := by
  rw [val_main_v3_apply, val_main_v0_apply, val_main_v2_apply, val_main_v1_apply]
  have el : ∀ k : Fin 768, lidx_main_v0 j k = ix3 (j 0) (j 1) k := fun k =>
    funext fun a => by match a with | ⟨0, _⟩ => rfl | ⟨1, _⟩ => rfl | ⟨2, _⟩ => rfl
  have er : ∀ k : Fin 768, ridx_main_v0 j k = ix2 (j 2) k := fun k =>
    funext fun a => by match a with | ⟨0, _⟩ => rfl | ⟨1, _⟩ => rfl
  have eb : idx_main_v1 (idx_main_v2 j) = ix1 (j 2) := funext fun a => by match a with | ⟨0, _⟩ => rfl
  simp only [el, er, eb, Ideal.addf_def]
  rfl

/-- The second einsum plus its bias, at (b, s, h): the right projection. -/
theorem right_apply (x0 : FVec Ideal S2x1024x768 .f32) (x3 : FVec Ideal S128x768 .f32) (x4 : FVec Ideal S128 .f32)
    (j : S2x1024x128.Idx) : val_main_v7 (F := Ideal) x0 x3 x4 j = PairScore.proj x0 x3 x4 j := by
  rw [val_main_v7_apply, val_main_v4_apply, val_main_v6_apply, val_main_v5_apply]
  have el : ∀ k : Fin 768, lidx_main_v4 j k = ix3 (j 0) (j 1) k := fun k =>
    funext fun a => by match a with | ⟨0, _⟩ => rfl | ⟨1, _⟩ => rfl | ⟨2, _⟩ => rfl
  have er : ∀ k : Fin 768, ridx_main_v4 j k = ix2 (j 2) k := fun k =>
    funext fun a => by match a with | ⟨0, _⟩ => rfl | ⟨1, _⟩ => rfl
  have eb : idx_main_v5 (idx_main_v6 j) = ix1 (j 2) := funext fun a => by match a with | ⟨0, _⟩ => rfl
  simp only [el, er, eb, Ideal.addf_def]
  rfl

/-- The outer sum plus the feature bias, at (b, i, j, h). -/
theorem outer_apply (x0 : FVec Ideal S2x1024x768 .f32) (x1 : FVec Ideal S128x768 .f32) (x2 : FVec Ideal S128 .f32)
    (x3 : FVec Ideal S128x768 .f32) (x4 x7 : FVec Ideal S128 .f32) (b : Fin 2) (p q : Fin 1024) (h : Fin 128) :
    val_main_v15 (F := Ideal) x0 x1 x2 x3 x4 x7 (ix4 b p q h)
      = (PairScore.proj x0 x1 x2 (ix3 b p h) + PairScore.proj x0 x3 x4 (ix3 b q h)) + x7 (ix1 h) := by
  rw [val_main_v15_apply, val_main_v12_apply, val_main_v10_apply, val_main_v8_apply, left_apply,
    val_main_v11_apply, val_main_v9_apply, right_apply, val_main_v14_apply, val_main_v13_apply]
  have e1 : idx_main_v8 (idx_main_v10 (ix4 b p q h)) = ix3 b p h :=
    funext fun a => by match a with | ⟨0, _⟩ => rfl | ⟨1, _⟩ => rfl | ⟨2, _⟩ => rfl
  have e2 : idx_main_v9 (idx_main_v11 (ix4 b p q h)) = ix3 b q h :=
    funext fun a => by match a with | ⟨0, _⟩ => rfl | ⟨1, _⟩ => rfl | ⟨2, _⟩ => rfl
  have e3 : idx_main_v13 (idx_main_v14 (ix4 b p q h)) = ix1 h := funext fun a => by match a with | ⟨0, _⟩ => rfl
  rw [e1, e2, e3]
  rfl

/-- The reference's result, as the last stage, is the score of the two projections. -/
theorem result_eq (x0 : FVec Ideal S2x1024x768 .f32) (x1 : FVec Ideal S128x768 .f32) (x2 : FVec Ideal S128 .f32)
    (x3 : FVec Ideal S128x768 .f32) (x4 : FVec Ideal S128 .f32) (x5 : FVec Ideal S51x128 .f32) (x6 : FVec Ideal S51 .f32)
    (x7 : FVec Ideal S128 .f32) :
    val_main_v20 (F := Ideal) x0 x1 x2 x3 x4 x5 x6 x7 = PairScore.result x0 x1 x2 x3 x4 x5 x6 x7 := by
  funext i
  obtain ⟨b, p, l, q, rfl⟩ : ∃ (b : Fin 2) (p : Fin 1024) (l : Fin 51) (q : Fin 1024), i = ix4 b p l q :=
    ⟨i 0, i 1, i 2, i 3, eq_ix4 i⟩
  rw [val_main_v20_apply, val_main_v17_apply, val_main_v16_apply, val_main_v19_apply, val_main_v18_apply]
  have el : ∀ k : Fin 128, lidx_main_v16 (idx_main_v17 (ix4 b p l q)) k = ix2 l k := fun k =>
    funext fun a => by match a with | ⟨0, _⟩ => rfl | ⟨1, _⟩ => rfl
  have er : ∀ k : Fin 128, ridx_main_v16 (idx_main_v17 (ix4 b p l q)) k = ix4 b p q k := fun k =>
    funext fun a => by match a with | ⟨0, _⟩ => rfl | ⟨1, _⟩ => rfl | ⟨2, _⟩ => rfl | ⟨3, _⟩ => rfl
  have eb : idx_main_v18 (idx_main_v19 (ix4 b p l q)) = ix1 l := funext fun a => by match a with | ⟨0, _⟩ => rfl
  simp only [el, er, eb, outer_apply, Ideal.addf_def]
  unfold PairScore.result PairScore.score
  refine congrArg (· + x6 (ix1 l)) (Finset.sum_congr rfl fun k _ => ?_)
  exact mul_comm _ _

end Cert.ReferenceIdeal.RefValue

end
-- ==== Proof.lean ====
/- The proof of `Cert.Claim` (proofs.«108946_j39779987096204_1_alg».proof.Defs): the three frames, the idealization (nothing was rewritten) and the
   equality of the two idealized programs' results on the extended reals.

   Both programs compute, for an input x of shape [2, 1024, 768], the score
       out (b, i, l, j) = (∑ h, ((left (b, i, h) + right (b, j, h)) + bias h) · Wv (l, h)) + bv l
   of every pair (i, j) of positions for every label l, where left and right are the two projections
       (∑ d, x (b, s, d) · W (h, d)) + β h
   of the input (Proof/Spec.lean). The kernel program computes the projections in one launch (a batch element per grid
   point, against weights the host has transposed) and the scores in a second launch (a 128 × 128 tile of pairs per
   grid point, the pairs laid out as the rows of one matrix product against the transposed label matrix); the
   reference computes them by einsums, broadcasts and a transpose. The sums are taken over the same index sets in both;
   the only law used is that the product of two extended reals commutes (the reference's label einsum has the label
   matrix as its left factor), so the precondition is never opened. -/
import proofs.«108946_j39779987096204_1_alg».proof.Defs
import proofs.«108946_j39779987096204_1_alg».proof.Proof.Gen.Kernel
import proofs.«108946_j39779987096204_1_alg».proof.Proof.Gen.Kernel.Skeleton
import proofs.«108946_j39779987096204_1_alg».proof.Proof.Gen.Kernel.Launch
import proofs.«108946_j39779987096204_1_alg».proof.Proof.Gen.Kernel.Points
import proofs.«108946_j39779987096204_1_alg».proof.Proof.Gen.Kernel.Frame
import proofs.«108946_j39779987096204_1_alg».proof.Proof.Gen.KernelIdeal
import proofs.«108946_j39779987096204_1_alg».proof.Proof.Gen.KernelIdeal.Skeleton
import proofs.«108946_j39779987096204_1_alg».proof.Proof.Gen.KernelIdeal.Launch
import proofs.«108946_j39779987096204_1_alg».proof.Proof.Gen.KernelIdeal.Points
import proofs.«108946_j39779987096204_1_alg».proof.Proof.Gen.KernelIdeal.Frame
import proofs.«108946_j39779987096204_1_alg».proof.Proof.Gen.ReferenceIdeal
import proofs.«108946_j39779987096204_1_alg».proof.Proof.Gen.Pre_finite_inputs
import proofs.«108946_j39779987096204_1_alg».proof.Proof.Gen.ReferenceIdeal.Run
import proofs.«108946_j39779987096204_1_alg».proof.Proof.Gen.ReferenceIdeal.Read
import proofs.«108946_j39779987096204_1_alg».proof.Proof.KernelValue
import proofs.«108946_j39779987096204_1_alg».proof.Proof.RefScore
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- So does the idealized reference: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, both idealized programs end with the result at `PairScore.result` of the
    arguments. -/
theorem algebraic : Cert.algebraic_KernelIdeal_ReferenceIdeal := by
  intro m ρ m' ρ' _ hagree
  refine ⟨fun c => PairScore.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v20_eq, Cert.ReferenceIdeal.RefValue.result_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
